-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2049 : Shape := ⟨2, ![2048, 2049]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2049 : S_.BroadcastsInDim S2048x2049 (![] : Fin 0 → Fin S2048x2049.rank)
  reducesTo_S2048x2049_S_d0_1 : S2048x2049.ReducesTo [0, 1] S_

variable [Facts]

def fn {F : FTy → Type} [FloatOps F] (main_arg0 : FVec F S8192x2048 .f32) (main_arg1 : FVec F S2048x2049 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2049 .f32 := Host.absf main_arg1
  let main_cst_0 : FVec F S_ .f32 := constant S_ .f32 0x7F800000#32
  let main_v5 : FVec F S2048x2049 .f32 := broadcastInDim S2048x2049 ![] bcast_S_S2048x2049 main_cst_0
  let main_v6 : IVec S2048x2049 1 := cmpf .olt main_v4 main_v5
  let main_c_1 : IVec S_ 1 := constantI S_ 1 1#1
  let main_v7 : IVec S_ 1 := (fun x v => Host.reduce IntOp.andi x v reducesTo_S2048x2049_S_d0_1 h_S_) main_v6 main_c_1
  let main_v8 : IVec S_ 1 := andi main_v3 main_v7
  main_v8
-- ==== Kernel.lean ====
abbrev S8192x2048 : Shape := ⟨2, ![8192, 2048]⟩
abbrev S2048x2049 : Shape := ⟨2, ![2048, 2049]⟩
abbrev S_ : Shape := ⟨0, ![]⟩
abbrev S2048x1 : Shape := ⟨2, ![2048, 1]⟩
abbrev S2048 : Shape := ⟨1, ![2048]⟩
abbrev S1x2048 : Shape := ⟨2, ![1, 2048]⟩
abbrev S2048x2048 : Shape := ⟨2, ![2048, 2048]⟩
abbrev S256x2048 : Shape := ⟨2, ![256, 2048]⟩

abbrev nBuf : Space → Nat
  | .hbm => 24
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2049, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x1, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S2048x2048, .f32⟩
  | .hbm, ⟨22, _⟩ => ⟨S2048x2048, .bf16⟩
  | .hbm, ⟨23, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2048x2049_S2048x1_0_2048 : S2048x2049.Slices ![0, 2048] S2048x1
  shapeCasts_S2048x1_S2048 : S2048x1.ShapeCasts S2048
  bcast_S_S2048 : S_.BroadcastsInDim S2048 (![] : Fin 0 → Fin S2048.rank)
  shapeCasts_S2048_S1x2048 : S2048.ShapeCasts S1x2048
  slices_S2048x2049_S2048x2048_0_0 : S2048x2049.Slices ![0, 0] S2048x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2049 : Shape := ⟨2, ![2048, 2049]⟩
abbrev S_ : Shape := ⟨0, ![]⟩
abbrev S8192x1 : Shape := ⟨2, ![8192, 1]⟩
abbrev S8192x2049 : Shape := ⟨2, ![8192, 2049]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2049, .f32⟩
  | .hbm, ⟨2, _⟩ => ⟨S_, .f32⟩
  | .hbm, ⟨3, _⟩ => ⟨S8192x1, .f32⟩
  | .hbm, ⟨4, _⟩ => ⟨S8192x2049, .f32⟩
  | .hbm, ⟨5, _⟩ => ⟨S_, .f32⟩
  | .hbm, ⟨6, _⟩ => ⟨S8192x2049, .f32⟩
  | .hbm, ⟨7, _⟩ => ⟨S8192x2049, .f32⟩
  | .hbm, ⟨8, _⟩ => ⟨S8192x2049, .f32⟩
  | .hbm, ⟨9, _⟩ => ⟨S8192x2049, .f32⟩
  | .hbm, ⟨10, _⟩ => ⟨S8192x2049, .i1⟩
  | .hbm, ⟨11, _⟩ => ⟨S8192x2049, .f32⟩
  | .hbm, ⟨12, _⟩ => ⟨S8192x2049, .f32⟩
  | .hbm, ⟨13, _⟩ => ⟨S8192x2049, .f32⟩
  | .hbm, ⟨14, _⟩ => ⟨S8192x2049, .f32⟩
  | .hbm, ⟨15, _⟩ => ⟨S8192x2049, .f32⟩
  | .hbm, ⟨16, _⟩ => ⟨S8192x2049, .f32⟩
  | .hbm, ⟨17, _⟩ => ⟨S8192x2049, .f32⟩
  | .hbm, ⟨18, _⟩ => ⟨S8192x2049, .f32⟩
  | .hbm, ⟨19, _⟩ => ⟨S_, .f32⟩
  | .hbm, ⟨20, _⟩ => ⟨S8192x2049, .f32⟩
  | .hbm, ⟨21, _⟩ => ⟨S8192x2049, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  concatenates_S8192x2048_S8192x1_S8192x2049_d1 : Shape.Concatenates [S8192x2048, S8192x1] S8192x2049 1
  bcast_S_S8192x2049 : S_.BroadcastsInDim S8192x2049 (![] : Fin 0 → Fin S8192x2049.rank)
  dot_S8192x2049_S2048x2049_S8192x2048_1_1_0_0_n_n_wf : DotDims.WF S8192x2049 S2048x2049 S8192x2048 [1] [1] [0] [0] [] []

variable [Facts₀]

def dot_S8192x2049_S2048x2049_S8192x2048_1_1_0_0_n_n : DotDims S8192x2049 S2048x2049 S8192x2048 where
  lhsContracting := [1]
  rhsContracting := [1]
  lhsNonContracting := [0]
  rhsNonContracting := [0]
  lhsBatch := []
  rhsBatch := []
  wf := dot_S8192x2049_S2048x2049_S8192x2048_1_1_0_0_n_n_wf

class Facts : Prop extends Facts₀ where

variable [Facts]
-- ==== Proof.KanSpec.lean ====
/-
  The layer that both programs compute, stated once over the extended reals.

  For a batch row `r` and an output unit `o` the layer is
      y[r, o] = ∑_{k < 2048} φ(x[r, k]) · W[o, k]  +  φ(1) · W[o, 2048],
  where `φ(a) = softplus(a) − ln2` is the shifted softplus, `ln2` is the single-precision value nearest to
  `log 2`, and the last column of `W` holds the bias weights: it multiplies `φ` of a constant one.  The softplus is
  the numerically stable spelling `max(a, 0) + log(1 + exp(−|a|))`.

  Two things are proved here, both about scalars and finite sums only:
  * the two spellings of the stable softplus that occur in the programs (one negates `|a|`, the other subtracts it
    from zero; both carry a test `d ≠ d` that is never true of an extended real) are that function;
  * a sum over the 2049 columns of the widened input is the sum over the first 2048 columns plus the last term.
  No finiteness is needed: only associativity and commutativity of `+` on the extended reals are used.
-/
import Idealize.ShloMosaic.PureOps.Ideal
import Idealize.ShloMosaic.PureOps.Ideal.Laws
import Idealize.ShloMosaic.Lib.ValueIdx

noncomputable section

namespace Cert.KanSpec

open Idealize.ShloMosaic Idealize.ShloMosaic.ValueIdx
open scoped BigOperators

/-- The single-precision value nearest to `log 2`: the shift of the activation. -/
def ln2 : EReal := Ideal.ofBits .f32 0x3F317218#32

/-- The single-precision one: the entry of the bias column of the widened input. -/
def one : EReal := Ideal.ofBits .f32 0x3F800000#32

/-- The stable softplus `max(a, 0) + log(1 + exp(−|a|))`, with `|a| = max(a, −a)`. -/
def softplus (a : EReal) : EReal := max a 0 + Ideal.log1p (Ideal.exp (-(max a (-a))))

/-- The shifted softplus, the layer's activation. -/
def phi (a : EReal) : EReal := softplus a - ln2

/-- Column `k < 2048` of the weights, as a column of the 2049-wide array. -/
def col (k : Fin 2048) : Fin 2049 := ⟨k.val, Nat.lt_succ_of_lt k.isLt⟩

/-- The bias column of the weights. -/
def biasCol : Fin 2049 := ⟨2048, Nat.lt_succ_self 2048⟩

/-- One entry of the layer: the activations of row `r` against row `o` of the weights, plus the bias term. -/
def entry (x : (⟨2, ![8192, 2048]⟩ : Shape).Idx → EReal) (W : (⟨2, ![2048, 2049]⟩ : Shape).Idx → EReal)
    (r : Fin 8192) (o : Fin 2048) : EReal :=
  (∑ k : Fin 2048, phi (x (ix2 r k)) * W (ix2 o (col k))) + phi one * W (ix2 o biasCol)

/-- The layer as one function of the two argument arrays, index by index. -/
def layer (x : (⟨2, ![8192, 2048]⟩ : Shape).Idx → EReal) (W : (⟨2, ![2048, 2049]⟩ : Shape).Idx → EReal) :
    (⟨2, ![8192, 2048]⟩ : Shape).Idx → EReal :=
  fun i => entry x W (i 0) (i 1)

/-- No extended real differs from itself: the test guarding the stable softplus never fires, in either of
    its two spellings. -/
theorem cmp_ne_self (a : EReal) : Ideal.cmp .une a a = 0#1 ∧ Ideal.cmp .one a a = 0#1 := by
  constructor <;> simp [Ideal.cmp]

/-- The softplus as a host program spells it: the difference `a − 0`, its absolute value negated. -/
theorem softplus_negated (a : EReal) :
    Scalar.select (Ideal.cmp .une (a - Ideal.ofBits .f32 0x00000000#32) (a - Ideal.ofBits .f32 0x00000000#32))
      (a + Ideal.ofBits .f32 0x00000000#32)
      (max a (Ideal.ofBits .f32 0x00000000#32)
        + Ideal.log1p (Ideal.exp (-(max (a - Ideal.ofBits .f32 0x00000000#32) (-(a - Ideal.ofBits .f32 0x00000000#32))))))
      = softplus a := by
  rw [Ideal.ofBits_zero_f32, sub_zero, (cmp_ne_self a).1, select_zero]
  rfl

/-- The softplus as a kernel body spells it: the absolute value subtracted from zero. -/
theorem softplus_subtracted (a : EReal) :
    Scalar.select (Ideal.cmp .one (a - Ideal.ofBits .f32 0x00000000#32) (a - Ideal.ofBits .f32 0x00000000#32))
      (a + Ideal.ofBits .f32 0x00000000#32)
      (max a (Ideal.ofBits .f32 0x00000000#32)
        + Ideal.log1p (Ideal.exp (Ideal.ofBits .f32 0x00000000#32
            - max (a - Ideal.ofBits .f32 0x00000000#32) (-(a - Ideal.ofBits .f32 0x00000000#32)))))
      = softplus a := by
  rw [Ideal.ofBits_zero_f32, sub_zero, (cmp_ne_self a).2, select_zero, zero_sub]
  rfl

/-- A sum over the 2049 columns is the sum over the first 2048 plus the bias column's term. -/
theorem sum_split_bias (f : Fin 2049 → EReal) :
    ∑ i : Fin 2049, f i = (∑ k : Fin 2048, f (col k)) + f biasCol :=
  Fin.sum_univ_castSucc (n := 2048) f

end Cert.KanSpec

end
-- ==== Proof.KanReference.lean ====
/-
  The reference, read entry by entry, is the layer.

  The reference widens the input by one column of ones, applies the shifted softplus to every entry of the
  widened array and contracts it with the full weight matrix over all 2049 columns.  Read at row `r` and output
  unit `o`, its result is `∑_{c < 2049} φ(xw[r, c]) · W[o, c]` with `xw[r, c] = x[r, c]` for `c < 2048` and
  `xw[r, 2048] = 1`.  Splitting the last column off the sum gives the layer's two terms: the sum over the input's
  own columns, and `φ(1)` times the bias weight.
-/
import proofs.«180276_j11871289606591_2_alg».proof.Proof.Gen.ReferenceIdeal.Read
import proofs.«180276_j11871289606591_2_alg».proof.Proof.KanSpec
import Idealize.ShloMosaic.Lib.Pipeline.Value
import Idealize.ShloMosaic.Lib.ValueIdx

noncomputable section

namespace Cert.KanReference

open Idealize.ShloMosaic Idealize.ShloMosaic.ValueIdx Cert.ReferenceIdeal Cert.ReferenceIdeal.Read Cert.KanSpec
open scoped BigOperators

variable (x : (⟨S8192x2048, .f32⟩ : BufTy).Contents (Elt Ideal)) (W : (⟨S2048x2049, .f32⟩ : BufTy).Contents (Elt Ideal))

/-- The widened input at one of the input's own columns is the input there. -/
theorem widened_data (r : Fin 8192) (k : Fin 2048) :
    val_main_v1 (F := Ideal) x (ix2 r (col k)) = x (ix2 r k) := by
  unfold val_main_v1
  exact concatenate_pair_apply_left (t := S8192x2049) (s₁ := S8192x2048) (s₂ := S8192x1) _ x _ _ (ix2 r (col k)) rfl (ix2 r k)
    (fun b => by
      match b with
      | ⟨0, _⟩ => rfl
      | ⟨1, _⟩ => rfl)

/-- The widened input at the added column is one. -/
theorem widened_bias (r : Fin 8192) :
    val_main_v1 (F := Ideal) x (ix2 r biasCol) = one := by
  unfold val_main_v1
  refine Eq.trans (concatenate_pair_apply_right (t := S8192x2049) (s₁ := S8192x2048) (s₂ := S8192x1) _ x _ _
    (ix2 r biasCol) rfl rfl (ix2 r (0 : Fin 1)) (fun b hb => ?_) ?_) ?_
  · match b with
    | ⟨0, _⟩ => rfl
    | ⟨1, _⟩ => exact absurd rfl hb
  · rfl
  · rw [val_main_v0_apply]
    rfl

/-- The activated widened input at an entry is the shifted softplus of the widened input there: the reference's
    spelling of the stable softplus is the specification's function. -/
theorem activation_at (r : Fin 8192) (c : Fin 2049) :
    val_main_v4 (F := Ideal) x (ix2 r c) = phi (val_main_v1 (F := Ideal) x (ix2 r c)) := by
  simp only [val_main_v4_apply, val_main_v2_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, val_main_v3_apply, val_main_cst_0_apply]
  exact congrArg (· - ln2) (softplus_negated _)

/-- THE REFERENCE IS THE LAYER: its last stage, as a function of the two arguments, index by index. -/
theorem reference_eq_layer : val_main_v5 (F := Ideal) x W = layer x W := by
  funext i
  obtain ⟨r, o, rfl⟩ : ∃ (r : Fin 8192) (o : Fin 2048), i = ix2 r o := ⟨i 0, i 1, eq_ix2 i⟩
  rw [val_main_v5_apply, sum_split_bias]
  show _ = entry x W r o
  unfold entry
  have hl : ∀ c : Fin 2049, lidx_main_v5 (ix2 r o) c = ix2 r c := fun c => funext fun a => Fin.ext (by
    match a with
    | ⟨0, _⟩ => rfl
    | ⟨1, _⟩ => rfl)
  have hr : ∀ c : Fin 2049, ridx_main_v5 (ix2 r o) c = ix2 o c := fun c => funext fun a => Fin.ext (by
    match a with
    | ⟨0, _⟩ => rfl
    | ⟨1, _⟩ => rfl)
  simp only [hl, hr, activation_at, widened_data, widened_bias]

end Cert.KanReference

end
-- ==== Proof.KanPayload.lean ====
/-
  The kernel body's stored value, read at one entry.

  At a grid point the body loads a block `xb` of 256 rows of the input, the whole 2048 × 2048 matrix `w` of
  weights (the weights without their bias column) and the 1 × 2048 bias row `b`, and stores
      (φ(xb) · wᵀ) + b      (the bias row repeated down the 256 rows),
  `φ` the shifted softplus applied entry by entry, the product a contraction over the 2048 columns of both
  operands.  Read at row `p` and column `q` of the block this is
      ∑_{k < 2048} φ(xb[p, k]) · w[q, k]  +  b[0, q]:
  the sum over an empty accumulator is the bare sum, the change of float format in front of the product and the
  shape casts to the same shape are identities, and the activation is the specification's `phi` because the
  body's spelling of the stable softplus is that function.
-/
import proofs.«180276_j11871289606591_2_alg».proof.Proof.Gen.KernelIdeal.Skeleton
import proofs.«180276_j11871289606591_2_alg».proof.Proof.KanSpec
import Idealize.ShloMosaic.Lib.ValueIdx
import Idealize.ShloMosaic.Lib.ValueLayout
import Idealize.ShloMosaic.Lib.Pipeline.Value
import Idealize.ShloMosaic.PureOps.Ideal.Laws

noncomputable section

namespace Cert.KanPayload

open Idealize.ShloMosaic Idealize.ShloMosaic.ValueIdx Cert.KernelIdeal Cert.KernelIdeal.Gen Cert.KanSpec
open scoped BigOperators

/-- The block product's dimension record: both operands contracted over their second axis. -/
abbrev blockDot := dot_S256x2048_S2048x2048_S256x2048_1_1_0_0_n_n

/-- The left operand's row coordinate is the output entry's row. -/
theorem lhs_row (i : S256x2048.Idx) (c : blockDot.contr.Idx) : (blockDot.lhsIdx i c 0).val = (i 0).val := by
  unfold DotDims.lhsIdx
  rw [dif_neg (show ¬(0 : Fin S256x2048.rank) ∈ blockDot.lhsBatch by decide),
    dif_pos (show (0 : Fin S256x2048.rank) ∈ blockDot.lhsNonContracting by decide)]
  rfl

/-- The left operand's column coordinate is the contraction position. -/
theorem lhs_col (i : S256x2048.Idx) (c : blockDot.contr.Idx) : (blockDot.lhsIdx i c 1).val = (c ⟨0, by decide⟩).val :=
  blockDot.lhsIdx_val_of_single rfl i c

/-- The right operand's row coordinate is the output entry's column. -/
theorem rhs_row (i : S256x2048.Idx) (c : blockDot.contr.Idx) : (blockDot.rhsIdx i c 0).val = (i 1).val := by
  unfold DotDims.rhsIdx
  rw [dif_neg (show ¬(0 : Fin S2048x2048.rank) ∈ blockDot.rhsBatch by decide),
    dif_pos (show (0 : Fin S2048x2048.rank) ∈ blockDot.rhsNonContracting by decide)]
  rfl

/-- The right operand's column coordinate is the contraction position. -/
theorem rhs_col (i : S256x2048.Idx) (c : blockDot.contr.Idx) : (blockDot.rhsIdx i c 1).val = (c ⟨0, by decide⟩).val :=
  blockDot.rhsIdx_val_of_single rfl i c

/-- The left operand of the block product at output entry `(p, q)` and contraction position `k` is entry `(p, k)`. -/
theorem lhs_at (p : Fin 256) (q : Fin 2048) (k : Fin 2048) :
    blockDot.lhsIdx (ix2 p q) ((contrEquiv1 blockDot 2048 rfl rfl).symm k) = ix2 p k :=
  funext fun a => Fin.ext (by
    match a with
    | ⟨0, _⟩ => exact lhs_row _ _
    | ⟨1, _⟩ => exact (lhs_col _ _).trans (contrEquiv1_symm_val blockDot 2048 rfl rfl k))

/-- The right operand there is entry `(q, k)`: row `q` of the weights. -/
theorem rhs_at (p : Fin 256) (q : Fin 2048) (k : Fin 2048) :
    blockDot.rhsIdx (ix2 p q) ((contrEquiv1 blockDot 2048 rfl rfl).symm k) = ix2 q k :=
  funext fun a => Fin.ext (by
    match a with
    | ⟨0, _⟩ => exact rhs_row _ _
    | ⟨1, _⟩ => exact (rhs_col _ _).trans (contrEquiv1_symm_val blockDot 2048 rfl rfl k))

/-- The stored block at entry `(p, q)`: the activations of row `p` against row `q` of the weights, plus the
    bias row's entry `q`. -/
theorem stored_at (xb : FVec Ideal S256x2048 .f32) (w : FVec Ideal S2048x2048 .bf16) (b : FVec Ideal S1x2048 .f32)
    (p : Fin 256) (q : Fin 2048) :
    k0_pay1 (F := Ideal) xb w b (ix2 p q)
      = (∑ k : Fin 2048, phi (xb (ix2 p k)) * w (ix2 q k)) + b (ix2 (0 : Fin 1) q) := by
  unfold k0_pay1
  rw [addf_apply, broadcastTo_1b_ab_apply, shapeCast_self, shapeCast_self, shapeCast_self]
  refine congrArg (· + b (ix2 (0 : Fin 1) q)) ?_
  simp only [matmul]
  rw [Ideal.matmul_constant_zero_apply, ← Equiv.sum_comp (contrEquiv1 blockDot 2048 rfl rfl).symm]
  refine Finset.sum_congr rfl fun k _ => ?_
  rw [lhs_at, rhs_at]
  refine congrArg (· * w (ix2 q k)) ?_
  exact congrArg (· - ln2) (softplus_subtracted (xb (ix2 p k)))

end Cert.KanPayload

end
-- ==== Proof.KanStaged.lean ====
/-
  What the pipeline hands the kernel body at a grid point.

  Before the call the kernel's program prepares two arrays from the weight argument `W` (2048 × 2049):
  * the weights proper, `W` without its last column (2048 × 2048; the change of float format is the identity);
  * the bias row (1 × 2048): `(softplus(1) − ln2) · W[o, 2048]` at position `o`, the shifted softplus of the
    constant one computed once, as a scalar, by the same host operations the reference applies entry by entry.
  The grid has 32 points.  At point `t` the body is handed rows `256·t … 256·t + 255` of the input, and, whole and
  the same at every point, the weights proper and the bias row.  Each of the three blocks is read here at an
  entry, in terms of the two argument arrays.
-/
import proofs.«180276_j11871289606591_2_alg».proof.Proof.Gen.KernelIdeal.Frame
import proofs.«180276_j11871289606591_2_alg».proof.Proof.KanSpec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

noncomputable section

namespace Cert.KanStaged

open Idealize.ShloMosaic Idealize.ShloMosaic.TcCoe Idealize.SL.Sem Idealize.ShloMosaic.StableHlo
open Idealize.ShloMosaic.ValueIdx Cert.KernelIdeal Cert.KernelIdeal.Gen Cert.KanSpec

/-! ## The two prepared arrays as functions of the weight argument -/

/-- The weights proper: the weight argument without its bias column. -/
def weightsProper (W : FVec Ideal S2048x2049 .f32) : FVec Ideal S2048x2048 .bf16 :=
  truncf .bf16 (extractStridedSlice S2048x2048 ![0, 0] W slices_S2048x2049_S2048x2048_0_0) bitsLt_bf16_f32

/-- Entry `(q, k)` of the weights proper is entry `(q, k)` of the weight argument. -/
theorem weightsProper_at (W : FVec Ideal S2048x2049 .f32) (q k : Fin 2048) :
    weightsProper W (ix2 q k) = W (ix2 q (col k)) := by
  unfold weightsProper
  rw [truncf_apply]
  exact slice2_axis1_apply 0 W _ q k (col k) (Nat.zero_add _).symm

/-- The stable softplus of the constant one, as the host computes it on a scalar. -/
def softplusOfOne : FVec Ideal S_ .f32 :=
  select (cmpf .une (subf (constant (F := Ideal) S_ .f32 0x3F800000#32) (constant (F := Ideal) S_ .f32 0x00000000#32))
      (subf (constant (F := Ideal) S_ .f32 0x3F800000#32) (constant (F := Ideal) S_ .f32 0x00000000#32)))
    (addf (constant (F := Ideal) S_ .f32 0x3F800000#32) (constant (F := Ideal) S_ .f32 0x00000000#32))
    (addf (maximumf (constant (F := Ideal) S_ .f32 0x3F800000#32) (constant (F := Ideal) S_ .f32 0x00000000#32))
      (Host.log1p (Host.exp (Host.negf (Host.absf
        (subf (constant (F := Ideal) S_ .f32 0x3F800000#32) (constant (F := Ideal) S_ .f32 0x00000000#32)))))))

/-- The scalar that scales the bias column: the shifted softplus of one. -/
def biasScale : FVec Ideal S_ .f32 := subf softplusOfOne (constant (F := Ideal) S_ .f32 0x3F317218#32)

/-- It is the specification's activation at one. -/
theorem biasScale_at (i : S_.Idx) : biasScale i = phi one :=
  congrArg (· - ln2) (softplus_negated one)

/-- The bias row: the scalar times the bias column of the weight argument, laid out as one row. -/
def biasRow (W : FVec Ideal S2048x2049 .f32) : FVec Ideal S1x2048 .f32 :=
  shapeCast S1x2048
    (mulf (broadcastInDim S2048 ![] bcast_S_S2048 biasScale)
      (shapeCast S2048 (extractStridedSlice S2048x1 ![0, 2048] W slices_S2048x2049_S2048x1_0_2048) shapeCasts_S2048x1_S2048))
    shapeCasts_S2048_S1x2048

/-- Position `q` of the bias row is the activation at one times the bias weight of output unit `q`. -/
theorem biasRow_at (W : FVec Ideal S2048x2049 .f32) (q : Fin 2048) :
    biasRow W (ix2 (0 : Fin 1) q) = phi one * W (ix2 q biasCol) := by
  unfold biasRow
  rw [shapeCast_apply _ _ (ix2 (0 : Fin 1) q) (ix1 q) (by
    rw [Shape.rowMajor_val_one, Shape.rowMajor_val_two]
    show q.val = 0 * 2048 + q.val
    omega)]
  rw [mulf_apply, broadcastInDim_scalar_apply, biasScale_at]
  rw [shapeCast_apply _ _ (ix1 q) (ix2 q (0 : Fin 1)) (by
    rw [Shape.rowMajor_val_one, Shape.rowMajor_val_two]
    show q.val * 1 + 0 = q.val
    omega)]
  rw [slice2_axis1_apply 2048 W _ q (0 : Fin 1) biasCol rfl]

variable (m : (ℓ : Loc nD τ sig) → Buf (Elt Ideal) ℓ)

/-- When the call is entered, the array the second window stages is the weights proper. -/
theorem entry_weights (c : Dev nD) :
    (V m c main_v8 : S2048x2048.Idx → EReal) = weightsProper (m ((c : Thread nD τ).loc main_arg1)) := by
  dsimp only [V]
  simp only [hostOps0, hostOps0_1, hostOps0_2, List.flatten_cons, List.flatten_nil, List.append_nil, List.cons_append,
    List.nil_append]
  after_results
  rfl

/-- When the call is entered, the array the third window stages is the bias row. -/
theorem entry_bias (c : Dev nD) :
    (V m c main_v6 : S1x2048.Idx → EReal) = biasRow (m ((c : Thread nD τ).loc main_arg1)) := by
  dsimp only [V]
  simp only [hostOps0, hostOps0_1, hostOps0_2, List.flatten_cons, List.flatten_nil, List.append_nil, List.cons_append,
    List.nil_append]
  after_results
  rfl

/-! ## The blocks at a grid point -/

/-- The windows' block indices over the 32 grid points, decided: the input and the output move down one block of
    rows per point, the weights proper and the bias row stay at their one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t`, entry `(p, k)`: the input's entry `(256·t + p, k)`. -/
theorem input_block_at (c : Dev nD) (t : Fin cfg0.N) (p : Fin 256) (k : Fin 2048) (R : Fin 8192)
    (hR : R.val = t.val * 256 + p.val) :
    (iblk m c 0 t : FVec Ideal S256x2048 .f32) (ix2 p k)
      = (m ((c : Thread nD τ).loc main_arg0) : S8192x2048.Idx → EReal) (ix2 R k) := by
  obtain ⟨e0, e1, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = R.val; rw [e0, hR]; omega
  | ⟨1, _⟩ => show win0_0.index t (1 : Fin 2) * 2048 + 1 * k.val = k.val; rw [e1]; omega

/-- The weights block at any point, entry `(q, k)`: the weight argument's entry `(q, k)`. -/
theorem weights_block_at (c : Dev nD) (t : Fin cfg0.N) (q k : Fin 2048) :
    (iblk m c 1 t : FVec Ideal S2048x2048 .bf16) (ix2 q k)
      = (m ((c : Thread nD τ).loc main_arg1) : S2048x2049.Idx → EReal) (ix2 q (col k)) := by
  obtain ⟨-, -, e2, e3, -⟩ := index_maps t
  show V m c main_v8 (((cfg0.win 1).blk t).view.emb (ix2 q k)) = _
  rw [entry_weights]
  refine Eq.trans (congrArg _ (funext fun a => Fin.ext ?_)) (weightsProper_at _ q k)
  match a with
  | ⟨0, _⟩ => show win0_1.index t (0 : Fin 2) * 2048 + 1 * q.val = q.val; rw [e2]; omega
  | ⟨1, _⟩ => show win0_1.index t (1 : Fin 2) * 2048 + 1 * k.val = k.val; rw [e3]; omega

/-- The bias block at any point, position `q`: the activation at one times the bias weight of unit `q`. -/
theorem bias_block_at (c : Dev nD) (t : Fin cfg0.N) (q : Fin 2048) :
    (iblk m c 2 t : FVec Ideal S1x2048 .f32) (ix2 (0 : Fin 1) q)
      = phi one * (m ((c : Thread nD τ).loc main_arg1) : S2048x2049.Idx → EReal) (ix2 q biasCol) := by
  obtain ⟨-, -, -, -, e4, e5, -⟩ := index_maps t
  show V m c main_v6 (((cfg0.win 2).blk t).view.emb (ix2 (0 : Fin 1) q)) = _
  rw [entry_bias]
  refine Eq.trans (congrArg _ (funext fun a => Fin.ext ?_)) (biasRow_at _ q)
  match a with
  | ⟨0, _⟩ => show win0_2.index t (0 : Fin 2) * 1 + 1 * 0 = 0; rw [e4]
  | ⟨1, _⟩ => show win0_2.index t (1 : Fin 2) * 2048 + 1 * q.val = q.val; rw [e5]; omega

end Cert.KanStaged

end
-- ==== Proof.KanKernel.lean ====
/-
  The kernel's result array is the layer.

  At grid point `t` the body stores, and the pipeline writes back, a 256 × 2048 block whose entry `(p, q)` is
      ∑_{k < 2048} φ(x[256·t + p, k]) · W[q, k]  +  φ(1) · W[q, 2048]:
  the stored value read at an entry, with each of the three blocks it is computed from read in terms of the
  argument arrays.  That is entry `(256·t + p, q)` of the layer, so point `t` writes rows `256·t … 256·t + 255` of
  the layer.  The 32 row blocks tile the 8192 rows (row `r` lies in the block of point `r / 256`), so after the run
  the result array is the layer, whole.
-/
import proofs.«180276_j11871289606591_2_alg».proof.Proof.Gen.KernelIdeal.Value
import proofs.«180276_j11871289606591_2_alg».proof.Proof.KanSpec
import proofs.«180276_j11871289606591_2_alg».proof.Proof.KanPayload
import proofs.«180276_j11871289606591_2_alg».proof.Proof.KanStaged
import Idealize.ShloMosaic.Lib.ValueIdx
import Idealize.ShloMosaic.Lib.Pipeline.Value

noncomputable section

namespace Cert.KanKernel

open Idealize.ShloMosaic Idealize.ShloMosaic.TcCoe Idealize.SL.Sem
open Idealize.ShloMosaic.Pipeline (Dat)
open Idealize.ShloMosaic.ValueIdx Cert.KernelIdeal Cert.KernelIdeal.Gen Cert.KanSpec Cert.KanStaged

variable (m : (ℓ : Loc nD τ sig) → Buf (Elt Ideal) ℓ) (ρ : Dev nD → PrngReg)

/-- The body reads and writes its buffers from their first entry. -/
theorem origin : (![0, 0] : Fin 2 → Nat) = fun _ => 0 := funext fun a => by fin_cases a <;> rfl

/-- WHAT POINT `t` WRITES BACK is block `t` of the layer of the argument arrays. -/
theorem written_back (c : Dev nD) (t : Fin cfg0.N) :
    (dats m 0 c).flushed 3 t = ((cfg0.win 3).blk t).view.read (Elt Ideal)
      (layer (m ((c : Thread nD τ).loc main_arg0)) (m ((c : Thread nD τ).loc main_arg1))) := by
  rw [Cert.KernelIdeal.Value.flushed3]
  unfold out0_3
  rw [View.canon_unit_zero origin]
  simp only [View.ld_unit_zero (S := S256x2048) origin, View.ld_unit_zero (S := S2048x2048) origin,
    View.ld_unit_zero (S := S1x2048) origin]
  obtain ⟨-, -, -, -, -, -, e6, e7⟩ := index_maps t
  have hN : cfg0.N = 32 := N_0
  refine funext fun (j : S256x2048.Idx) => ?_
  obtain ⟨p, q, rfl⟩ : ∃ (p : Fin 256) (q : Fin 2048), j = ix2 p q := ⟨j 0, j 1, eq_ix2 j⟩
  have hR : t.val * 256 + p.val < 8192 := by have := t.isLt; have := p.isLt; omega
  show k0_pay1 (iblk m c 0 t) (iblk m c 1 t) (iblk m c 2 t) (ix2 p q)
    = layer (m ((c : Thread nD τ).loc main_arg0)) (m ((c : Thread nD τ).loc main_arg1))
        (((cfg0.win 3).blk t).view.emb (ix2 p q))
  refine (Cert.KanPayload.stored_at (iblk m c 0 t) (iblk m c 1 t) (iblk m c 2 t) p q).trans ?_
  have hi : ((cfg0.win 3).blk t).view.emb (ix2 p q) = ix2 (⟨t.val * 256 + p.val, hR⟩ : Fin 8192) q :=
    funext fun a => Fin.ext (by
      match a with
      | ⟨0, _⟩ => show win0_3.index t (0 : Fin 2) * 256 + 1 * p.val = t.val * 256 + p.val; rw [e6]; omega
      | ⟨1, _⟩ => show win0_3.index t (1 : Fin 2) * 2048 + 1 * q.val = q.val; rw [e7]; omega)
  rw [hi]
  show _ = entry _ _ ⟨t.val * 256 + p.val, hR⟩ q
  unfold entry
  rw [bias_block_at m c t q]
  refine congrArg (· + _) (Finset.sum_congr rfl fun k _ => ?_)
  rw [input_block_at m c t p k ⟨t.val * 256 + p.val, hR⟩ rfl, weights_block_at m c t q k]

/-- An index of the result array is in point `t`'s block iff each coordinate is in the block's range on its axis. -/
theorem mem_block (t : Fin cfg0.N) (i : S8192x2048.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v9).slice (win0_3.rect t)).set ↔ _
  rw [View.set_slice_whole, Rect.mem_set_unit]
  exact Iff.rfl

/-- THE BLOCKS COVER THE ARRAY: row `r` is in the block of point `r / 256`, which is written back. -/
theorem covered (i : S8192x2048.Idx) :
    ∃ t : Fin cfg0.N, (cfg0.win 3).flush t = true ∧ i ∈ ((cfg0.win 3).blk t).view.set := by
  have hN : cfg0.N = 32 := N_0
  have hi0 : (i 0).val < 8192 := (i 0).isLt
  have hi1 : (i 1).val < 2048 := (i 1).isLt
  obtain ⟨t, ht⟩ : ∃ t : Fin cfg0.N, t.val = (i 0).val / 256 := ⟨⟨(i 0).val / 256, by rw [hN]; omega⟩, rfl⟩
  obtain ⟨-, -, -, -, -, -, e6, e7⟩ := index_maps t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    rw [e6, ht]; omega
  | ⟨1, _⟩ =>
    show win0_3.index t (1 : Fin 2) * 2048 ≤ (i 1).val ∧ (i 1).val < win0_3.index t (1 : Fin 2) * 2048 + 2048
    rw [e7]; omega

/-- THE RESULT ARRAY after the run is the layer of the argument arrays. -/
theorem result_array (c : Dev nD) :
    (dats m 0 c).arrAt 3 cfg0.N = layer (m ((c : Thread nD τ).loc main_arg0)) (m ((c : Thread nD τ).loc main_arg1)) :=
  (dats m 0 c).arrAt_eq_of_cover 3 _ (fun t _ => written_back m c t) covered

/-- The kernel's run: it terminates with the result array at the layer and the arguments unchanged. -/
theorem run : θ_run defs (onTc (τ := τ) (main (F := Ideal))) ⟨m, fun _ => 0, ρ⟩ fun r => ∀ c : Dev nD,
      r.2.mem ((c : Thread nD τ).loc main_v9)
        = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_array m c), (h c).2⟩)
    (Cert.KernelIdeal.Value.run_blocks m ρ)

end Cert.KanKernel

end
-- ==== Proof.lean ====
/-
  A fully connected layer with a shifted-softplus activation and a bias column, computed two ways.

  The arguments are an input `x` (8192 × 2048) and weights `W` (2048 × 2049) whose last column holds the bias
  weights.  With `φ(a) = softplus(a) − ln2`, `ln2` the single-precision value nearest to `log 2`, both programs compute
      y[r, o] = ∑_{k < 2048} φ(x[r, k]) · W[o, k]  +  φ(1) · W[o, 2048].
  * The reference widens `x` by a column of ones, applies `φ` to every entry and contracts with all 2049 columns of
    `W`: the bias term is the last term of its sum.
  * The kernel never widens `x`.  Since the added column is constant, its contribution `φ(1) · W[o, 2048]` does not
    depend on the row: it is computed once as a bias row, and a pipelined call over 32 blocks of 256 rows adds it
    to the product of `φ` of the block with the first 2048 columns of `W`.
  Over the extended reals every operation is exact and a change of float format is the identity, so the two
  results are one function of the arguments: the last term splits off the reference's sum, which needs only that
  addition is associative and commutative; no entry needs to be finite.  Both programs spell the softplus in its
  stable form `max(a, 0) + log(1 + exp(−|a|))`; the kernel body subtracts `|a|` from zero where the host negates
  it, and both guard with a test that no extended real satisfies.

  The proof: the layer as one function (`KanSpec`); the reference's result is it (`KanReference`); the kernel
  body's stored block at an entry (`KanPayload`), the blocks it is computed from (`KanStaged`), and the result
  array after the run (`KanKernel`).  The idealized kernel is the printed kernel read over the extended reals, no
  operation rewritten, so nothing is owed for the idealization.
-/
import proofs.«180276_j11871289606591_2_alg».proof.Defs
import proofs.«180276_j11871289606591_2_alg».proof.Proof.Gen.Kernel
import proofs.«180276_j11871289606591_2_alg».proof.Proof.Gen.Kernel.Skeleton
import proofs.«180276_j11871289606591_2_alg».proof.Proof.Gen.Kernel.Launch
import proofs.«180276_j11871289606591_2_alg».proof.Proof.Gen.Kernel.Points
import proofs.«180276_j11871289606591_2_alg».proof.Proof.Gen.Kernel.Frame
import proofs.«180276_j11871289606591_2_alg».proof.Proof.Gen.KernelIdeal
import proofs.«180276_j11871289606591_2_alg».proof.Proof.Gen.KernelIdeal.Skeleton
import proofs.«180276_j11871289606591_2_alg».proof.Proof.Gen.KernelIdeal.Launch
import proofs.«180276_j11871289606591_2_alg».proof.Proof.Gen.KernelIdeal.Points
import proofs.«180276_j11871289606591_2_alg».proof.Proof.Gen.KernelIdeal.Frame
import proofs.«180276_j11871289606591_2_alg».proof.Proof.Gen.ReferenceIdeal
import proofs.«180276_j11871289606591_2_alg».proof.Proof.Gen.Pre_finite_inputs
import proofs.«180276_j11871289606591_2_alg».proof.Proof.Gen.KernelIdeal.Value
import proofs.«180276_j11871289606591_2_alg».proof.Proof.Gen.ReferenceIdeal.Run
import proofs.«180276_j11871289606591_2_alg».proof.Proof.Gen.ReferenceIdeal.Read
import proofs.«180276_j11871289606591_2_alg».proof.Proof.KanSpec
import proofs.«180276_j11871289606591_2_alg».proof.Proof.KanReference
import proofs.«180276_j11871289606591_2_alg».proof.Proof.KanKernel
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the printed kernel with no operation rewritten. -/
theorem preserves : Cert.preserves_Kernel_KernelIdeal := trivial

/-- From memories that agree on the arguments the kernel's result array ends at the layer of the arguments, and the
    reference's result is its last stage, which is the layer of the same arguments. -/
theorem algebraic : Cert.algebraic_KernelIdeal_ReferenceIdeal := by
  intro m ρ m' ρ' _ hagree
  refine ⟨_, Cert.KanKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.KanReference.reference_eq_layer, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
